-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 10
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .f32⟩
  | .hbm, ⟨8, _⟩ => ⟨S1x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S400x10000, .f32⟩
  | .local _ .vmem, ⟨8, _⟩ => ⟨S400x10000, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S400x128, .f32⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.PassBody.lean ====
/-
  One pass of the kernel, inside one grid step.

  A grid step holds a strip `a` of 400 rows of the adjacency matrix, the whole feature matrix `v` (10000 × 128),
  a weight matrix `w` (128 × 128) and a bias row `b` (1 × 128), and stores

      out[p, q] = Σ_l (Σ_k a[p, k] · v[k, l]) · w[l, q] + b[0, q]          (second pass)
      out[p, q] = max (the same) 0                                          (first pass).

  At the ideal instance the two roundings to bf16 before the first product are the identity, and each
  `tpu.matmul` into the zero accumulator is the plain sum over its contracted axis.
-/
import proofs.«171553_g9603546874155_cont_9to1c4b_372_4_alg».proof.Proof.Gen.KernelIdeal.Skeleton
import proofs.«171553_g9603546874155_cont_9to1c4b_372_4_alg».proof.Proof.LibMatDot
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## Where the two products' records read their operands -/

theorem big_l0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem big_l1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
theorem big_r0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
theorem big_r1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

theorem small_l0 (i : S400x128.Idx) (c : dot_S400x128_S128x128_S400x128_1_0_0_1_n_n.contr.Idx) :
    (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem small_l1 (i : S400x128.Idx) (c : dot_S400x128_S128x128_S400x128_1_0_0_1_n_n.contr.Idx) :
    (dot_S400x128_S128x128_S400x128_1_0_0_1_n_n.lhsIdx i c 1).val = (c ⟨0, by decide⟩).val :=
  dot_S400x128_S128x128_S400x128_1_0_0_1_n_n.lhsIdx_val_of_single rfl i c
theorem small_r0 (i : S400x128.Idx) (c : dot_S400x128_S128x128_S400x128_1_0_0_1_n_n.contr.Idx) :
    (dot_S400x128_S128x128_S400x128_1_0_0_1_n_n.rhsIdx i c 0).val = (c ⟨0, by decide⟩).val :=
  dot_S400x128_S128x128_S400x128_1_0_0_1_n_n.rhsIdx_val_of_single rfl i c
theorem small_r1 (i : S400x128.Idx) (c : dot_S400x128_S128x128_S400x128_1_0_0_1_n_n.contr.Idx) :
    (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-! ## The strip's result before the activation -/

/-- Entry (p, q) of (a · v) · w + b for a strip `a` of 400 rows. -/
def strip (a : S400x10000.Idx → EReal) (v : S10000x128.Idx → EReal) (w : S128x128.Idx → EReal)
    (b : S1x128.Idx → EReal) (p : Fin 400) (q : Fin 128) : EReal :=
  (∑ l : Fin 128, (∑ k : Fin 10000, a (ix2 p k) * v (ix2 k l)) * w (ix2 l q)) + b (ix2 (0 : Fin 1) q)

/-- The two products one after the other, at an entry. -/
theorem two_products (a : FVec Ideal S400x10000 .bf16) (v : FVec Ideal S10000x128 .bf16) (w : FVec Ideal S128x128 .f32)
    (p : Fin 400) (q : Fin 128) :
    matmul dot_S400x128_S128x128_S400x128_1_0_0_1_n_n none
        (matmul dot_S400x10000_S10000x128_S400x128_1_0_0_1_n_n none a v (constant (F := Ideal) S400x128 .f32 0x00000000#32))
        w (constant (F := Ideal) S400x128 .f32 0x00000000#32) (ix2 p q)
      = ∑ l : Fin 128, (∑ k : Fin 10000, a (ix2 p k) * v (ix2 k l)) * w (ix2 l q) := by
  refine (mat_dot_zero dot_S400x128_S128x128_S400x128_1_0_0_1_n_n none rfl rfl small_l0 small_l1 small_r0 small_r1 _ w p q).trans ?_
  refine Finset.sum_congr rfl fun l _ => ?_
  exact congrArg (· * w (ix2 l q))
    (mat_dot_zero dot_S400x10000_S10000x128_S400x128_1_0_0_1_n_n none rfl rfl big_l0 big_l1 big_r0 big_r1 a v p l)

/-- The bias row spread over the strip, at an entry. -/
theorem bias_at (b : FVec Ideal S1x128 .f32) (p : Fin 400) (q : Fin 128) :
    broadcastTo S400x128 (shapeCast S1x128 b shapeCasts_S1x128_S1x128) broadcasts_S1x128_S400x128 (ix2 p q)
      = b (ix2 (0 : Fin 1) q) := by
  rw [shapeCast_self]
  exact broadcastTo_1b_ab_apply b broadcasts_S1x128_S400x128 p q

/-- What the first pass stores, at an entry: the strip's affine result, cut off below at zero. -/
theorem first_pass_at (x0 : Vec Ideal S400x10000 .f32) (x1 : Vec Ideal S10000x128 .f32) (x2 : Vec Ideal S128x128 .f32)
    (x3 : Vec Ideal S1x128 .f32) (p : Fin 400) (q : Fin 128) :
    k0_pay1 (F := Ideal) x0 x1 x2 x3 (ix2 p q) = max (strip x0 x1 x2 x3 p q) 0 := by
  unfold k0_pay1
  simp only [maximumf_apply, addf_apply, broadcast_apply]
  refine congrArg₂ max (congrArg₂ (· + ·) ?_ (bias_at x3 p q)) Ideal.ofBits_zero_f32
  exact two_products _ _ x2 p q

/-- What the second pass stores, at an entry: the strip's affine result. -/
theorem second_pass_at (x0 : Vec Ideal S400x10000 .f32) (x1 : Vec Ideal S10000x128 .f32) (x2 : Vec Ideal S128x128 .f32)
    (x3 : Vec Ideal S1x128 .f32) (p : Fin 400) (q : Fin 128) :
    k1_pay1 (F := Ideal) x0 x1 x2 x3 (ix2 p q) = strip x0 x1 x2 x3 p q := by
  unfold k1_pay1
  simp only [addf_apply]
  refine congrArg₂ (· + ·) ?_ (bias_at x3 p q)
  rw [shapeCast_self]
  exact two_products _ _ x2 p q

/-- The same at any index of the strip's result. -/
theorem first_pass_apply (x0 : Vec Ideal S400x10000 .f32) (x1 : Vec Ideal S10000x128 .f32) (x2 : Vec Ideal S128x128 .f32)
    (x3 : Vec Ideal S1x128 .f32) (y : S400x128.Idx) :
    k0_pay1 (F := Ideal) x0 x1 x2 x3 y = max (strip x0 x1 x2 x3 (y 0) (y 1)) 0 :=
  (congrArg (k0_pay1 (F := Ideal) x0 x1 x2 x3) (eq_ix2 y)).trans (first_pass_at x0 x1 x2 x3 (y 0) (y 1))

theorem second_pass_apply (x0 : Vec Ideal S400x10000 .f32) (x1 : Vec Ideal S10000x128 .f32) (x2 : Vec Ideal S128x128 .f32)
    (x3 : Vec Ideal S1x128 .f32) (y : S400x128.Idx) :
    k1_pay1 (F := Ideal) x0 x1 x2 x3 y = strip x0 x1 x2 x3 (y 0) (y 1) :=
  (congrArg (k1_pay1 (F := Ideal) x0 x1 x2 x3) (eq_ix2 y)).trans (second_pass_at x0 x1 x2 x3 (y 0) (y 1))

end Cert.KernelIdeal.Body

end
-- ==== Proof.Dense.lean ====
/-
  The layer both programs compute, as one function of whole arrays.

  For an adjacency matrix `A` (10000 × 10000), features `X` (10000 × 128), weights `W` (128 × 128) and a bias
  row `B` (1 × 128), entry (p, q) of (A · X) · W + B is

      Σ_l (Σ_k A[p, k] · X[k, l]) · W[l, q] + B[0, q].

  The hidden layer cuts this off below at zero; the output layer does not. A strip of 400 consecutive rows of
  `A` gives the same 400 rows of the result.
-/
import proofs.«171553_g9603546874155_cont_9to1c4b_372_4_alg».proof.Proof.PassBody

noncomputable section

open scoped BigOperators

namespace Cert.KernelIdeal.Layer

open Cert.KernelIdeal Idealize.ShloMosaic Idealize.ShloMosaic.ValueIdx Cert.KernelIdeal.Body

/-- Entry (p, q) of (A · X) · W + B. -/
def affine (A : S10000x10000.Idx → EReal) (X : S10000x128.Idx → EReal) (W : S128x128.Idx → EReal)
    (B : S1x128.Idx → EReal) (p : Fin 10000) (q : Fin 128) : EReal :=
  (∑ l : Fin 128, (∑ k : Fin 10000, A (ix2 p k) * X (ix2 k l)) * W (ix2 l q)) + B (ix2 (0 : Fin 1) q)

/-- The hidden layer: relu ((A · X) · W + B). -/
def hiddenLayer (A : S10000x10000.Idx → EReal) (X : S10000x128.Idx → EReal) (W : S128x128.Idx → EReal)
    (B : S1x128.Idx → EReal) : S10000x128.Idx → EReal :=
  fun i => max (affine A X W B (i 0) (i 1)) 0

/-- The output layer: (A · X) · W + B. -/
def outputLayer (A : S10000x10000.Idx → EReal) (X : S10000x128.Idx → EReal) (W : S128x128.Idx → EReal)
    (B : S1x128.Idx → EReal) : S10000x128.Idx → EReal :=
  fun i => affine A X W B (i 0) (i 1)

/-- A strip whose row `p` is row `r` of `A` gives, in its row `p`, row `r` of the layer (the column `q` named
    twice, by equal numbers). -/
theorem strip_eq_affine (A : S10000x10000.Idx → EReal) (X : S10000x128.Idx → EReal) (W : S128x128.Idx → EReal)
    (B : S1x128.Idx → EReal) (a : S400x10000.Idx → EReal) (p : Fin 400) (q : Fin 128) (r : Fin 10000) (q' : Fin 128)
    (hq : q'.val = q.val) (h : ∀ k : Fin 10000, a (ix2 p k) = A (ix2 r k)) :
    strip a X W B p q = affine A X W B r q' := by
  obtain rfl : q = q' := (Fin.ext hq).symm
  unfold strip affine
  refine congrArg (· + B (ix2 (0 : Fin 1) q)) (Finset.sum_congr rfl fun l _ => ?_)
  exact congrArg (· * W (ix2 l q)) (Finset.sum_congr rfl fun k _ => by rw [h k])

end Cert.KernelIdeal.Layer

end
-- ==== Proof.FirstPass.lean ====
/-
  The first pass over the adjacency matrix: the hidden layer, as the array it leaves.

  The pass runs over 25 grid points; at point `t` it reads rows 400 t … 400 t + 399 of the adjacency matrix and the
  whole of the other three operands, and writes rows 400 t … 400 t + 399 of its result. So each point writes its
  block of ONE whole-array function of the arrays the pass finds, the blocks tile the result, and the result
  array ends as that function: relu ((A · X) · W + B).
  Everything is stated at ANY contents `V` of the buffers when the pass starts.
-/
import proofs.«171553_g9603546874155_cont_9to1c4b_372_4_alg».proof.Proof.Gen.KernelIdeal.Frame
import proofs.«171553_g9603546874155_cont_9to1c4b_372_4_alg».proof.Proof.Dense

noncomputable section

open scoped BigOperators

namespace Cert.KernelIdeal.FirstPass

open Cert.KernelIdeal Cert.KernelIdeal.Gen Idealize.ShloMosaic Idealize.ShloMosaic.TcCoe Idealize.SL.Sem
open Idealize.ShloMosaic.ValueIdx Cert.KernelIdeal.Body Cert.KernelIdeal.Layer
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block each window is on at grid point `t`: block `t` along the rows for the adjacency strip and for the
    result, the one whole block for the other three operands (decided over the 25 points). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks, read off the arrays -/

/-- Row `p` of the strip at point `t` is row 400 t + p of the adjacency matrix. -/
theorem strip_read (c : Dev nD) (t : Fin cfg0.N) (y : S400x10000.Idx) (i : S10000x10000.Idx)
    (h0 : (i 0).val = t.val * 400 + (y 0).val) (h1 : (i 1).val = (y 1).val) :
    iblk0 V c 0 t y = V c main_arg1 i := by
  show V c main_arg1 (((cfg0.win 0).blk t).view.emb y) = V c main_arg1 i
  refine congrArg (V c main_arg1) (funext fun a => Fin.ext ?_)
  obtain ⟨e0, e1, -⟩ := block_index t
  match a with
  | ⟨0, _⟩ => show win0_0.index t (0 : Fin 2) * 400 + 1 * (y 0).val = (i 0).val; omega
  | ⟨1, _⟩ => show win0_0.index t (1 : Fin 2) * 10000 + 1 * (y 1).val = (i 1).val; omega

/-- The second operand's block is its whole array, at every point. -/
theorem feats_read (c : Dev nD) (t : Fin cfg0.N) : iblk0 V c 1 t = V c main_arg0 := by
  funext y
  show V c main_arg0 (((cfg0.win 1).blk t).view.emb y) = V c main_arg0 y
  refine congrArg (V c main_arg0) (funext fun a => Fin.ext ?_)
  obtain ⟨-, -, e0, e1, -⟩ := block_index t
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- So is the weight matrix's. -/
theorem weights_read (c : Dev nD) (t : Fin cfg0.N) : iblk0 V c 2 t = V c main_arg2 := by
  funext y
  show V c main_arg2 (((cfg0.win 2).blk t).view.emb y) = V c main_arg2 y
  refine congrArg (V c main_arg2) (funext fun a => Fin.ext ?_)
  obtain ⟨-, -, -, -, e0, e1, -⟩ := block_index t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- And the bias row's. -/
theorem bias_read (c : Dev nD) (t : Fin cfg0.N) : iblk0 V c 3 t = V c main_v0 := by
  funext y
  show V c main_v0 (((cfg0.win 3).blk t).view.emb y) = V c main_v0 y
  refine congrArg (V c main_v0) (funext fun a => Fin.ext ?_)
  obtain ⟨-, -, -, -, -, -, e0, e1, -⟩ := block_index t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## What a point writes back, and the array after the pass -/

/-- Point `t` writes back block `t` of the layer's whole-array function. -/
theorem flushed_eq (c : Dev nD) (t : Fin cfg0.N) :
    (dat0 V c).flushed 4 t
      = ((cfg0.win 4).blk t).view.read (Elt Ideal) (hiddenLayer (V c main_arg1) (V c main_arg0) (V c main_arg2) (V c main_v0)) := by
  show (cfg0.win 4).cut (grid0.coords t) ((dat0 V c).after 4 t) = _
  rw [after0_4]
  unfold out0_4
  rw [View.canon_unit_zero zeros]
  simp only [View.ld_unit_zero (S := S400x10000) zeros, View.ld_unit_zero (S := S10000x128) zeros,
    View.ld_unit_zero (S := S128x128) zeros, View.ld_unit_zero (S := S1x128) zeros]
  rw [feats_read V c t, weights_read V c t, bias_read V c t]
  funext j
  obtain ⟨-, -, -, -, -, -, -, -, e0, e1⟩ := block_index t
  have h0 : ((((cfg0.win 4).blk t).view.emb j) 0).val = t.val * 400 + (j 0).val := by
    show win0_4.index t (0 : Fin 2) * 400 + 1 * (j 0).val = t.val * 400 + (j 0).val; omega
  have h1 : ((((cfg0.win 4).blk t).view.emb j) 1).val = (j 1).val := by
    show win0_4.index t (1 : Fin 2) * 128 + 1 * (j 1).val = (j 1).val; omega
  refine (first_pass_apply (iblk0 V c 0 t) (V c main_arg0) (V c main_arg2) (V c main_v0) j).trans ?_
  show _ = hiddenLayer (V c main_arg1) (V c main_arg0) (V c main_arg2) (V c main_v0) (((cfg0.win 4).blk t).view.emb j)
  unfold hiddenLayer
  refine congrArg (max · (0 : EReal)) ?_
  exact strip_eq_affine (V c main_arg1) (V c main_arg0) (V c main_arg2) (V c main_v0) (iblk0 V c 0 t) (j 0) (j 1) _ _ h1
    (fun k => strip_read V c t (ix2 (j 0) k) (ix2 _ k) h0 rfl)

/-- An index of the result is in point `t`'s block iff each coordinate is in the block's range on its axis. -/
theorem mem_block (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- Row `r` of the result is in the block of point `r / 400`. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨-, -, -, -, -, -, -, -, e0, e1⟩ := block_index ⟨(i 0).val / 400, ht⟩
  refine ⟨⟨(i 0).val / 400, ht⟩, flush0_4 _, ?_⟩
  rw [mem_block]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_4.index ⟨(i 0).val / 400, ht⟩ (1 : Fin 2) * 128 ≤ (i 1).val
      ∧ (i 1).val < win0_4.index ⟨(i 0).val / 400, ht⟩ (1 : Fin 2) * 128 + 128
    omega

/-- The result array after the pass. -/
theorem final (c : Dev nD) :
    (dat0 V c).arrAt 4 cfg0.N = hiddenLayer (V c main_arg1) (V c main_arg0) (V c main_arg2) (V c main_v0) :=
  (dat0 V c).arrAt_eq_of_cover 4 _ (fun t _ => flushed_eq V c t) covered

end Cert.KernelIdeal.FirstPass

end
-- ==== Proof.SecondPass.lean ====
/-
  The second pass over the adjacency matrix: the output layer, as the array it leaves.

  The pass runs over 25 grid points; at point `t` it reads rows 400 t … 400 t + 399 of the adjacency matrix and the
  whole of the other three operands, and writes rows 400 t … 400 t + 399 of its result. So each point writes its
  block of ONE whole-array function of the arrays the pass finds, the blocks tile the result, and the result
  array ends as that function: (A · X) · W + B.
  Everything is stated at ANY contents `V` of the buffers when the pass starts.
-/
import proofs.«171553_g9603546874155_cont_9to1c4b_372_4_alg».proof.Proof.Gen.KernelIdeal.Frame
import proofs.«171553_g9603546874155_cont_9to1c4b_372_4_alg».proof.Proof.Dense

noncomputable section

open scoped BigOperators

namespace Cert.KernelIdeal.SecondPass

open Cert.KernelIdeal Cert.KernelIdeal.Gen Idealize.ShloMosaic Idealize.ShloMosaic.TcCoe Idealize.SL.Sem
open Idealize.ShloMosaic.ValueIdx Cert.KernelIdeal.Body Cert.KernelIdeal.Layer
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The block each window is on at grid point `t`: block `t` along the rows for the adjacency strip and for the
    result, the one whole block for the other three operands (decided over the 25 points). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks, read off the arrays -/

/-- Row `p` of the strip at point `t` is row 400 t + p of the adjacency matrix. -/
theorem strip_read (c : Dev nD) (t : Fin cfg1.N) (y : S400x10000.Idx) (i : S10000x10000.Idx)
    (h0 : (i 0).val = t.val * 400 + (y 0).val) (h1 : (i 1).val = (y 1).val) :
    iblk1 V c 0 t y = V c main_arg1 i := by
  show V c main_arg1 (((cfg1.win 0).blk t).view.emb y) = V c main_arg1 i
  refine congrArg (V c main_arg1) (funext fun a => Fin.ext ?_)
  obtain ⟨e0, e1, -⟩ := block_index t
  match a with
  | ⟨0, _⟩ => show win1_0.index t (0 : Fin 2) * 400 + 1 * (y 0).val = (i 0).val; omega
  | ⟨1, _⟩ => show win1_0.index t (1 : Fin 2) * 10000 + 1 * (y 1).val = (i 1).val; omega

/-- The second operand's block is its whole array, at every point. -/
theorem feats_read (c : Dev nD) (t : Fin cfg1.N) : iblk1 V c 1 t = V c main_v1 := by
  funext y
  show V c main_v1 (((cfg1.win 1).blk t).view.emb y) = V c main_v1 y
  refine congrArg (V c main_v1) (funext fun a => Fin.ext ?_)
  obtain ⟨-, -, e0, e1, -⟩ := block_index t
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- So is the weight matrix's. -/
theorem weights_read (c : Dev nD) (t : Fin cfg1.N) : iblk1 V c 2 t = V c main_arg4 := by
  funext y
  show V c main_arg4 (((cfg1.win 2).blk t).view.emb y) = V c main_arg4 y
  refine congrArg (V c main_arg4) (funext fun a => Fin.ext ?_)
  obtain ⟨-, -, -, -, e0, e1, -⟩ := block_index t
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- And the bias row's. -/
theorem bias_read (c : Dev nD) (t : Fin cfg1.N) : iblk1 V c 3 t = V c main_v2 := by
  funext y
  show V c main_v2 (((cfg1.win 3).blk t).view.emb y) = V c main_v2 y
  refine congrArg (V c main_v2) (funext fun a => Fin.ext ?_)
  obtain ⟨-, -, -, -, -, -, e0, e1, -⟩ := block_index t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-! ## What a point writes back, and the array after the pass -/

/-- Point `t` writes back block `t` of the layer's whole-array function. -/
theorem flushed_eq (c : Dev nD) (t : Fin cfg1.N) :
    (dat1 V c).flushed 4 t
      = ((cfg1.win 4).blk t).view.read (Elt Ideal) (outputLayer (V c main_arg1) (V c main_v1) (V c main_arg4) (V c main_v2)) := by
  show (cfg1.win 4).cut (grid1.coords t) ((dat1 V c).after 4 t) = _
  rw [after1_4]
  unfold out1_4
  rw [View.canon_unit_zero zeros]
  simp only [View.ld_unit_zero (S := S400x10000) zeros, View.ld_unit_zero (S := S10000x128) zeros,
    View.ld_unit_zero (S := S128x128) zeros, View.ld_unit_zero (S := S1x128) zeros]
  rw [feats_read V c t, weights_read V c t, bias_read V c t]
  funext j
  obtain ⟨-, -, -, -, -, -, -, -, e0, e1⟩ := block_index t
  have h0 : ((((cfg1.win 4).blk t).view.emb j) 0).val = t.val * 400 + (j 0).val := by
    show win1_4.index t (0 : Fin 2) * 400 + 1 * (j 0).val = t.val * 400 + (j 0).val; omega
  have h1 : ((((cfg1.win 4).blk t).view.emb j) 1).val = (j 1).val := by
    show win1_4.index t (1 : Fin 2) * 128 + 1 * (j 1).val = (j 1).val; omega
  refine (second_pass_apply (iblk1 V c 0 t) (V c main_v1) (V c main_arg4) (V c main_v2) j).trans ?_
  show _ = outputLayer (V c main_arg1) (V c main_v1) (V c main_arg4) (V c main_v2) (((cfg1.win 4).blk t).view.emb j)
  unfold outputLayer
  exact strip_eq_affine (V c main_arg1) (V c main_v1) (V c main_arg4) (V c main_v2) (iblk1 V c 0 t) (j 0) (j 1) _ _ h1
    (fun k => strip_read V c t (ix2 (j 0) k) (ix2 _ k) h0 rfl)

/-- An index of the result is in point `t`'s block iff each coordinate is in the block's range on its axis. -/
theorem mem_block (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v3).slice (win1_4.rect t)).set ↔ _
  rw [View.set_slice_whole, Rect.mem_set_unit]
  exact Iff.rfl

/-- Row `r` of the result is in the block of point `r / 400`. -/
theorem covered (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 25 := N_1
  have ht : (i 0).val / 400 < cfg1.N := by rw [hN]; omega
  obtain ⟨-, -, -, -, -, -, -, -, e0, e1⟩ := block_index ⟨(i 0).val / 400, ht⟩
  refine ⟨⟨(i 0).val / 400, ht⟩, flush1_4 _, ?_⟩
  rw [mem_block]
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_4.index ⟨(i 0).val / 400, ht⟩ (1 : Fin 2) * 128 ≤ (i 1).val
      ∧ (i 1).val < win1_4.index ⟨(i 0).val / 400, ht⟩ (1 : Fin 2) * 128 + 128
    omega

/-- The result array after the pass. -/
theorem final (c : Dev nD) :
    (dat1 V c).arrAt 4 cfg1.N = outputLayer (V c main_arg1) (V c main_v1) (V c main_arg4) (V c main_v2) :=
  (dat1 V c).arrAt_eq_of_cover 4 _ (fun t _ => flushed_eq V c t) covered

end Cert.KernelIdeal.SecondPass

end
-- ==== Proof.Gcn.lean ====
/-
  The two-layer network as one function of the six arguments:

      gcn x adj W1 b1 W2 b2 = (adj · relu ((adj · x) · W1 + b1)) · W2 + b2,

  each bias vector (128) added to every row, that is, read as a 1 × 128 row.
-/
import proofs.«171553_g9603546874155_cont_9to1c4b_372_4_alg».proof.Proof.Dense

noncomputable section

namespace Cert.KernelIdeal.Layer

open Cert.KernelIdeal Idealize.ShloMosaic Idealize.ShloMosaic.ValueIdx

/-- A bias vector as a one-row matrix. -/
def row (b : S128.Idx → EReal) : S1x128.Idx → EReal := fun i => b (ix1 (i 1))

/-- Reshaping the vector to shape 1 × 128 gives that row. -/
theorem cast_row (b : S128.Idx → EReal) (h : S128.ShapeCasts S1x128) : shapeCast S1x128 b h = row b :=
  funext fun i => (congrArg (shapeCast S1x128 b h) (eq_ix2 i)).trans (shapeCast_a_1a_apply b h (i 0) (i 1))

/-- The whole network. -/
def gcn (x : S10000x128.Idx → EReal) (adj : S10000x10000.Idx → EReal) (w1 : S128x128.Idx → EReal) (b1 : S128.Idx → EReal)
    (w2 : S128x128.Idx → EReal) (b2 : S128.Idx → EReal) : S10000x128.Idx → EReal :=
  outputLayer adj (hiddenLayer adj x w1 (row b1)) w2 (row b2)

end Cert.KernelIdeal.Layer

end
-- ==== Proof.KernelRun.lean ====
/-
  The kernel program's run, read as a value.

  The program is: reshape the first bias to a row; the first pass over the adjacency matrix (the hidden layer);
  reshape the second bias to a row; the second pass (the output layer), whose second operand is the array the
  first pass left. Walking the buffer contents through these four segments, the result buffer ends holding

      output (adj, hidden (adj, x, W1, row b1), W2, row b2)

  of the launch contents of the six arguments, which end unchanged.
-/
import proofs.«171553_g9603546874155_cont_9to1c4b_372_4_alg».proof.Proof.Gen.KernelIdeal.Frame
import proofs.«171553_g9603546874155_cont_9to1c4b_372_4_alg».proof.Proof.FirstPass
import proofs.«171553_g9603546874155_cont_9to1c4b_372_4_alg».proof.Proof.SecondPass
import proofs.«171553_g9603546874155_cont_9to1c4b_372_4_alg».proof.Proof.Gcn
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Layer

/-! ## The run, with the result buffer read -/

section Run

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution terminates without a fault; the result buffer ends at the contents the last
    segment boundary gives it and the arguments end as launched. -/
theorem run_read : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Run

/-! ## The buffer contents at the segment boundaries, at the ideal instance -/

section Values

variable (m : (ℓ : Loc nD τ sig) → Buf (Elt Ideal) ℓ) (ρ : Dev nD → PrngReg)

/-- When the first pass starts, its operands hold the launch contents, the bias as a row. -/
theorem pass1_adj (c : Dev nD) : V1 m ρ c main_arg1 = m ((c : Thread nD τ).loc main_arg1) := by
  show StableHlo.after hostOps0 (W0 m ρ c) (Proc.devRef .tc main_arg1) = _
  after_results
theorem pass1_x (c : Dev nD) : V1 m ρ c main_arg0 = m ((c : Thread nD τ).loc main_arg0) := by
  show StableHlo.after hostOps0 (W0 m ρ c) (Proc.devRef .tc main_arg0) = _
  after_results
theorem pass1_w (c : Dev nD) : V1 m ρ c main_arg2 = m ((c : Thread nD τ).loc main_arg2) := by
  show StableHlo.after hostOps0 (W0 m ρ c) (Proc.devRef .tc main_arg2) = _
  after_results
theorem pass1_b (c : Dev nD) : V1 m ρ c main_v0 = row (m ((c : Thread nD τ).loc main_arg3)) := by
  show StableHlo.after hostOps0 (W0 m ρ c) (Proc.devRef .tc main_v0) = _
  after_results
  exact cast_row _ _

/-- The first pass leaves the hidden layer in its result buffer. -/
theorem hidden_left (c : Dev nD) :
    W2 m ρ c (Proc.devRef .tc main_v1)
      = hiddenLayer (m ((c : Thread nD τ).loc main_arg1)) (m ((c : Thread nD τ).loc main_arg0))
          (m ((c : Thread nD τ).loc main_arg2)) (row (m ((c : Thread nD τ).loc main_arg3))) := by
  refine (W2_arr m ρ c 4).trans ((FirstPass.final (V1 m ρ) c).trans ?_)
  rw [pass1_adj m ρ c, pass1_x m ρ c, pass1_w m ρ c, pass1_b m ρ c]

/-- When the second pass starts: the adjacency matrix and the second weights as launched, the hidden layer where the
    first pass left it, the second bias as a row. -/
theorem pass2_adj (c : Dev nD) : V3 m ρ c main_arg1 = m ((c : Thread nD τ).loc main_arg1) := by
  show StableHlo.after hostOps1 (W2 m ρ c) (Proc.devRef .tc main_arg1) = _
  after_results
  exact ((W2_arr m ρ c 0).trans (((dat0 (V1 m ρ) c).arrAt_in 0 rfl _).trans (A_eq0 (V1 m ρ) c 0))).trans (pass1_adj m ρ c)
theorem pass2_h (c : Dev nD) :
    V3 m ρ c main_v1 = hiddenLayer (m ((c : Thread nD τ).loc main_arg1)) (m ((c : Thread nD τ).loc main_arg0))
          (m ((c : Thread nD τ).loc main_arg2)) (row (m ((c : Thread nD τ).loc main_arg3))) := by
  show StableHlo.after hostOps1 (W2 m ρ c) (Proc.devRef .tc main_v1) = _
  after_results
  exact hidden_left m ρ c
theorem pass2_w (c : Dev nD) : V3 m ρ c main_arg4 = m ((c : Thread nD τ).loc main_arg4) := by
  show StableHlo.after hostOps1 (W2 m ρ c) (Proc.devRef .tc main_arg4) = _
  after_results
  refine (W2_of_ne m ρ c main_arg4 (by decide)).trans ?_
  show StableHlo.after hostOps0 (W0 m ρ c) (Proc.devRef .tc main_arg4) = _
  after_results
theorem pass2_b (c : Dev nD) : V3 m ρ c main_v2 = row (m ((c : Thread nD τ).loc main_arg5)) := by
  show StableHlo.after hostOps1 (W2 m ρ c) (Proc.devRef .tc main_v2) = _
  after_results
  refine (cast_row _ _).trans (congrArg row ?_)
  refine (W2_of_ne m ρ c main_arg5 (by decide)).trans ?_
  show StableHlo.after hostOps0 (W0 m ρ c) (Proc.devRef .tc main_arg5) = _
  after_results

/-- The second pass leaves the network's value in the result buffer. -/
theorem result_left (c : Dev nD) :
    W4 m ρ c (Proc.devRef .tc main_v3)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 4).trans ((SecondPass.final (V3 m ρ) c).trans ?_)
  rw [pass2_adj m ρ c, pass2_h m ρ c, pass2_w m ρ c, pass2_b m ρ c]
  rfl

/-- The kernel program's run: the result buffer ends at the network's value of the launch contents of the arguments,
    which end unchanged. -/
theorem run : θ_run defs (onTc (τ := τ) (main (F := Ideal))) ⟨m, fun _ => 0, ρ⟩ (fun r => ∀ c : Dev nD,
      r.2.mem ((c.tc : Thread nD τ).loc main_v3)
        = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_left m ρ c), (h c).2⟩) (run_read m ρ)

end Values

end Cert.KernelIdeal.Whole

end
-- ==== Proof.RefNetwork.lean ====
/-
  The reference, read as the same function.

  The reference computes h = relu (adj · x · W1 + b1), then adj · h · W2 + b2, one host operation at a time. Read at
  an index, each product is the sum over its contracted axis, each bias broadcast reads the vector at the column,
  and relu is the maximum with the zero constant: index by index this is the network `gcn` of the six arguments.
-/
import proofs.«171553_g9603546874155_cont_9to1c4b_372_4_alg».proof.Proof.Gen.ReferenceIdeal.Read
import proofs.«171553_g9603546874155_cont_9to1c4b_372_4_alg».proof.Proof.Gcn

noncomputable section

open scoped BigOperators

namespace Cert.ReferenceIdeal.AsNetwork

open Cert.ReferenceIdeal Cert.ReferenceIdeal.Read Idealize.ShloMosaic Idealize.ShloMosaic.ValueIdx

/-! ## The index functions of the generated read lemmas, by coordinates -/

theorem lrow (i : S10000x128.Idx) (k : Fin 10000) : lidx_main_v0 i k = ix2 (n0 := 10000) (n1 := 10000) (i 0) k :=
  funext fun a => Fin.ext (by match a with | ⟨0, _⟩ => rfl | ⟨1, _⟩ => rfl)
theorem rcol (i : S10000x128.Idx) (k : Fin 10000) : ridx_main_v0 i k = ix2 (n0 := 10000) (n1 := 128) k (i 1) :=
  funext fun a => Fin.ext (by match a with | ⟨0, _⟩ => rfl | ⟨1, _⟩ => rfl)
theorem lrow' (i : S10000x128.Idx) (l : Fin 128) : lidx_main_v1 i l = ix2 (n0 := 10000) (n1 := 128) (i 0) l :=
  funext fun a => Fin.ext (by match a with | ⟨0, _⟩ => rfl | ⟨1, _⟩ => rfl)
theorem rcol' (i : S10000x128.Idx) (l : Fin 128) : ridx_main_v1 i l = ix2 (n0 := 128) (n1 := 128) l (i 1) :=
  funext fun a => Fin.ext (by match a with | ⟨0, _⟩ => rfl | ⟨1, _⟩ => rfl)
theorem bias_col (i : S10000x128.Idx) : idx_main_v2 (idx_main_v3 i) = ix1 (n := 128) (i 1) :=
  funext fun a => Fin.ext (by match a with | ⟨0, _⟩ => rfl)
theorem lrow2 (i : S10000x128.Idx) (k : Fin 10000) : lidx_main_v6 i k = ix2 (n0 := 10000) (n1 := 10000) (i 0) k :=
  funext fun a => Fin.ext (by match a with | ⟨0, _⟩ => rfl | ⟨1, _⟩ => rfl)
theorem rcol2 (i : S10000x128.Idx) (k : Fin 10000) : ridx_main_v6 i k = ix2 (n0 := 10000) (n1 := 128) k (i 1) :=
  funext fun a => Fin.ext (by match a with | ⟨0, _⟩ => rfl | ⟨1, _⟩ => rfl)
theorem lrow2' (i : S10000x128.Idx) (l : Fin 128) : lidx_main_v7 i l = ix2 (n0 := 10000) (n1 := 128) (i 0) l :=
  funext fun a => Fin.ext (by match a with | ⟨0, _⟩ => rfl | ⟨1, _⟩ => rfl)
theorem rcol2' (i : S10000x128.Idx) (l : Fin 128) : ridx_main_v7 i l = ix2 (n0 := 128) (n1 := 128) l (i 1) :=
  funext fun a => Fin.ext (by match a with | ⟨0, _⟩ => rfl | ⟨1, _⟩ => rfl)
theorem bias_col2 (i : S10000x128.Idx) : idx_main_v8 (idx_main_v9 i) = ix1 (n := 128) (i 1) :=
  funext fun a => Fin.ext (by match a with | ⟨0, _⟩ => rfl)

/-! ## The two layers -/

/-- The reference's activation is the hidden layer. -/
theorem hidden_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = Cert.KernelIdeal.Layer.hiddenLayer x1 x0 x2 (Cert.KernelIdeal.Layer.row x3) := by
  funext i
  rw [val_main_v5_apply, val_main_v4_apply, val_main_call0_v0_apply, val_main_call0_cst_apply, val_main_v1_apply,
    val_main_v3_apply, val_main_v2_apply]
  simp only [val_main_v0_apply, lrow, rcol, lrow', rcol', bias_col]
  show max (_ + _) (Ideal.ofBits .f32 0x00000000#32) = _
  rw [Ideal.ofBits_zero_f32]
  rfl

/-- The reference's result is the output layer over its activation. -/
theorem output_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5 = Cert.KernelIdeal.Layer.gcn x0 x1 x2 x3 x4 x5 := by
  funext i
  rw [val_main_v10_apply, val_main_v7_apply, val_main_v9_apply, val_main_v8_apply]
  simp only [val_main_v6_apply, hidden_eq, lrow2, rcol2, lrow2', rcol2', bias_col2]
  rfl

end Cert.ReferenceIdeal.AsNetwork

end
-- ==== Proof.lean ====
/-
  The kernel computes a two-layer graph convolution with a dense adjacency matrix,

      out = (adj · relu ((adj · x) · W1 + b1)) · W2 + b2,

  in two passes over the adjacency matrix, each in strips of 400 rows; the reference computes the same expression
  with whole-matrix products. Over the extended reals both results are, entry by entry, the same nested sums of
  products: no algebraic law beyond reading each product as the sum over its contracted axis is needed, and the
  finiteness of the inputs is not used. The kernel's rounding of two operands to bf16 is the identity at the ideal
  instance, and the ideal pass rewrote nothing, so the idealized kernel is the kernel's own text.

  Proof/PassBody.lean reads what one grid step stores; Proof/Dense.lean and Proof/Gcn.lean state the layers and the
  network as functions of whole arrays; Proof/FirstPass.lean and Proof/SecondPass.lean show that each pass leaves
  its layer in its result array; Proof/KernelRun.lean walks the program's segments and reads the result buffer;
  Proof/RefNetwork.lean reads the reference as the same function.
-/
import proofs.«171553_g9603546874155_cont_9to1c4b_372_4_alg».proof.Defs
import proofs.«171553_g9603546874155_cont_9to1c4b_372_4_alg».proof.Proof.Gen.Kernel
import proofs.«171553_g9603546874155_cont_9to1c4b_372_4_alg».proof.Proof.Gen.Kernel.Frame
import proofs.«171553_g9603546874155_cont_9to1c4b_372_4_alg».proof.Proof.Gen.KernelIdeal
import proofs.«171553_g9603546874155_cont_9to1c4b_372_4_alg».proof.Proof.Gen.KernelIdeal.Frame
import proofs.«171553_g9603546874155_cont_9to1c4b_372_4_alg».proof.Proof.Gen.ReferenceIdeal
import proofs.«171553_g9603546874155_cont_9to1c4b_372_4_alg».proof.Proof.Gen.Pre_finite_inputs
import proofs.«171553_g9603546874155_cont_9to1c4b_372_4_alg».proof.Proof.Gen.ReferenceIdeal.Run
import proofs.«171553_g9603546874155_cont_9to1c4b_372_4_alg».proof.Proof.Gen.ReferenceIdeal.Read
import proofs.«171553_g9603546874155_cont_9to1c4b_372_4_alg».proof.Proof.KernelRun
import proofs.«171553_g9603546874155_cont_9to1c4b_372_4_alg».proof.Proof.RefNetwork
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network's value of the (agreeing) arguments in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.AsNetwork.output_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
